-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S4x2048 : Shape := ⟨2, ![4, 2048]⟩
abbrev S_ : Shape := ⟨0, ![]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel

variable [Facts]

def fn {F : FTy → Type} [FloatOps F] (main_arg0 : FVec F S64x2048x64 .f32) (main_arg1 : FVec F S64x2048x64 .f32) (main_arg2 : FVec F S64x2048x64 .f32) (main_arg3 : IVec S4x2048 32) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S64x2048x64 : Shape := ⟨3, ![64, 2048, 64]⟩
abbrev S4x2048 : Shape := ⟨2, ![4, 2048]⟩
abbrev S_ : Shape := ⟨0, ![]⟩
abbrev S1x4x1x2048 : Shape := ⟨4, ![1, 4, 1, 2048]⟩
abbrev S16x4x1x2048 : Shape := ⟨4, ![16, 4, 1, 2048]⟩
abbrev S64x2048 : Shape := ⟨2, ![64, 2048]⟩
abbrev S64x1x2048 : Shape := ⟨3, ![64, 1, 2048]⟩
abbrev S1x512x64 : Shape := ⟨3, ![1, 512, 64]⟩
abbrev S1x2048x64 : Shape := ⟨3, ![1, 2048, 64]⟩
abbrev S1x1x2048 : Shape := ⟨3, ![1, 1, 2048]⟩
abbrev S512x64 : Shape := ⟨2, ![512, 64]⟩
abbrev S2048x64 : Shape := ⟨2, ![2048, 64]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S4x2048, .i32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S4x2048, .f32⟩
  | .hbm, ⟨8, _⟩ => ⟨S1x4x1x2048, .f32⟩
  | .hbm, ⟨9, _⟩ => ⟨S16x4x1x2048, .f32⟩
  | .hbm, ⟨10, _⟩ => ⟨S64x2048, .f32⟩
  | .hbm, ⟨11, _⟩ => ⟨S_, .f32⟩
  | .hbm, ⟨12, _⟩ => ⟨S64x2048, .f32⟩
  | .hbm, ⟨13, _⟩ => ⟨S64x2048, .f32⟩
  | .hbm, ⟨14, _⟩ => ⟨S64x1x2048, .f32⟩
  | .hbm, ⟨15, _⟩ => ⟨S64x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x512x64, .f32⟩
  | .local _ .vmem, ⟨9, _⟩ => ⟨S1x512x64, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4x2048 : S_.BroadcastsInDim S4x2048 (![] : Fin 0 → Fin S4x2048.rank)
  shapeCasts_S4x2048_S1x4x1x2048 : S4x2048.ShapeCasts S1x4x1x2048
  bcast_S1x4x1x2048_S16x4x1x2048_0_1_2_3 : S1x4x1x2048.BroadcastsInDim S16x4x1x2048 (![0, 1, 2, 3] : Fin 4 → Fin S16x4x1x2048.rank)
  shapeCasts_S16x4x1x2048_S64x2048 : S16x4x1x2048.ShapeCasts S64x2048
  bcast_S_S64x2048 : S_.BroadcastsInDim S64x2048 (![] : Fin 0 → Fin S64x2048.rank)
  bcast_S64x2048_S64x1x2048_0_2 : S64x2048.BroadcastsInDim S64x1x2048 (![0, 2] : Fin 2 → Fin S64x1x2048.rank)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S64x1x2048.size a
  hwx0_3 : ∀ i : grid0.Coords, EltTy.bits .f32 = 32 ∨ (Rect.block (s := S64x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S4x2048 : Shape := ⟨2, ![4, 2048]⟩
abbrev S64x2048x2048 : Shape := ⟨3, ![64, 2048, 2048]⟩
abbrev S_ : Shape := ⟨0, ![]⟩
abbrev S1x4x1x2048 : Shape := ⟨4, ![1, 4, 1, 2048]⟩
abbrev S16x4x1x2048 : Shape := ⟨4, ![16, 4, 1, 2048]⟩
abbrev S64x2048 : Shape := ⟨2, ![64, 2048]⟩
abbrev S64x1x2048 : Shape := ⟨3, ![64, 1, 2048]⟩
abbrev S64x2048x1 : Shape := ⟨3, ![64, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S4x2048, .i32⟩
  | .hbm, ⟨4, _⟩ => ⟨S64x2048x2048, .f32⟩
  | .hbm, ⟨5, _⟩ => ⟨S_, .f32⟩
  | .hbm, ⟨6, _⟩ => ⟨S_, .f32⟩
  | .hbm, ⟨7, _⟩ => ⟨S64x2048x2048, .f32⟩
  | .hbm, ⟨8, _⟩ => ⟨S64x2048x2048, .f32⟩
  | .hbm, ⟨9, _⟩ => ⟨S_, .i32⟩
  | .hbm, ⟨10, _⟩ => ⟨S4x2048, .i32⟩
  | .hbm, ⟨11, _⟩ => ⟨S4x2048, .i1⟩
  | .hbm, ⟨12, _⟩ => ⟨S4x2048, .f32⟩
  | .hbm, ⟨13, _⟩ => ⟨S1x4x1x2048, .f32⟩
  | .hbm, ⟨14, _⟩ => ⟨S16x4x1x2048, .f32⟩
  | .hbm, ⟨15, _⟩ => ⟨S64x2048, .f32⟩
  | .hbm, ⟨16, _⟩ => ⟨S64x1x2048, .f32⟩
  | .hbm, ⟨17, _⟩ => ⟨S_, .f32⟩
  | .hbm, ⟨18, _⟩ => ⟨S64x1x2048, .f32⟩
  | .hbm, ⟨19, _⟩ => ⟨S64x1x2048, .f32⟩
  | .hbm, ⟨20, _⟩ => ⟨S64x2048x2048, .f32⟩
  | .hbm, ⟨21, _⟩ => ⟨S64x2048x2048, .f32⟩
  | .hbm, ⟨22, _⟩ => ⟨S_, .f32⟩
  | .hbm, ⟨23, _⟩ => ⟨S64x2048, .f32⟩
  | .hbm, ⟨24, _⟩ => ⟨S_, .f32⟩
  | .hbm, ⟨25, _⟩ => ⟨S64x2048, .f32⟩
  | .hbm, ⟨26, _⟩ => ⟨S64x2048, .f32⟩
  | .hbm, ⟨27, _⟩ => ⟨S64x2048x1, .f32⟩
  | .hbm, ⟨28, _⟩ => ⟨S64x2048x2048, .f32⟩
  | .hbm, ⟨29, _⟩ => ⟨S64x2048x2048, .f32⟩
  | .hbm, ⟨30, _⟩ => ⟨S64x2048x2048, .f32⟩
  | .hbm, ⟨31, _⟩ => ⟨S_, .f32⟩
  | .hbm, ⟨32, _⟩ => ⟨S64x2048, .f32⟩
  | .hbm, ⟨33, _⟩ => ⟨S64x2048x1, .f32⟩
  | .hbm, ⟨34, _⟩ => ⟨S64x2048x2048, .f32⟩
  | .hbm, ⟨35, _⟩ => ⟨S64x2048x2048, .f32⟩
  | .hbm, ⟨36, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  bcast_S_S4x2048 : S_.BroadcastsInDim S4x2048 (![] : Fin 0 → Fin S4x2048.rank)
  shapeCasts_S4x2048_S1x4x1x2048 : S4x2048.ShapeCasts S1x4x1x2048
  bcast_S1x4x1x2048_S16x4x1x2048_0_1_2_3 : S1x4x1x2048.BroadcastsInDim S16x4x1x2048 (![0, 1, 2, 3] : Fin 4 → Fin S16x4x1x2048.rank)
  shapeCasts_S16x4x1x2048_S64x2048 : S16x4x1x2048.ShapeCasts S64x2048
  bcast_S64x2048_S64x1x2048_0_2 : S64x2048.BroadcastsInDim S64x1x2048 (![0, 2] : Fin 2 → Fin S64x1x2048.rank)
  bcast_S_S64x1x2048 : S_.BroadcastsInDim S64x1x2048 (![] : Fin 0 → Fin S64x1x2048.rank)
  bcast_S64x1x2048_S64x2048x2048_0_1_2 : S64x1x2048.BroadcastsInDim S64x2048x2048 (![0, 1, 2] : Fin 3 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.AttnProducts.lean ====
/-
  The two matrix products of the attention tile, read at an entry.

  A product of a `[512, 64]` by a `[64, 2048]` matrix into a zero accumulator is, at `(p, q)`, the sum over the 64
  shared positions `e` of left `(p, e)` times right `(e, q)`; likewise a `[512, 2048]` by `[2048, 64]` product sums
  over the 2048 shared positions. On the extended reals the product has no rounding and no accumulation order.
  For each product the four coordinate facts come first: an operand index takes its free coordinate from the output
  index and its shared coordinate from the summation index.
-/
import proofs.«132619_j33646773796895_2_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

theorem scoreProduct_lhs0 (j : S512x2048.Idx) (k : dot_S512x64_S64x2048_S512x2048_1_0_0_1_n_n.contr.Idx) : (dot_S512x64_S64x2048_S512x2048_1_0_0_1_n_n.lhsIdx j k 0).val = (j 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem scoreProduct_lhs1 (j : S512x2048.Idx) (k : dot_S512x64_S64x2048_S512x2048_1_0_0_1_n_n.contr.Idx) : (dot_S512x64_S64x2048_S512x2048_1_0_0_1_n_n.lhsIdx j k 1).val = (k ⟨0, by decide⟩).val :=
  dot_S512x64_S64x2048_S512x2048_1_0_0_1_n_n.lhsIdx_val_of_single rfl j k
theorem scoreProduct_rhs0 (j : S512x2048.Idx) (k : dot_S512x64_S64x2048_S512x2048_1_0_0_1_n_n.contr.Idx) : (dot_S512x64_S64x2048_S512x2048_1_0_0_1_n_n.rhsIdx j k 0).val = (k ⟨0, by decide⟩).val :=
  dot_S512x64_S64x2048_S512x2048_1_0_0_1_n_n.rhsIdx_val_of_single rfl j k
theorem scoreProduct_rhs1 (j : S512x2048.Idx) (k : dot_S512x64_S64x2048_S512x2048_1_0_0_1_n_n.contr.Idx) : (dot_S512x64_S64x2048_S512x2048_1_0_0_1_n_n.rhsIdx j k 1).val = (j 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Query rows times transposed key rows: entry `(p, q)` sums over the 64 features. -/
theorem scoreProduct_apply {φ₁ φ₂ : FTy} (l : FVec Ideal S512x64 φ₁) (w : FVec Ideal S64x2048 φ₂) (p : Fin 512) (q : Fin 2048) :
    matmul dot_S512x64_S64x2048_S512x2048_1_0_0_1_n_n none l w (constant S512x2048 .f32 0x00000000#32) (ix2 p q)
      = ∑ e : Fin 64, l (ix2 p e) * w (ix2 e q) := by
  simp only [matmul]
  rw [Ideal.matmul_constant_zero_apply, ← Equiv.sum_comp (contrEquiv1 dot_S512x64_S64x2048_S512x2048_1_0_0_1_n_n 64 rfl rfl).symm]
  refine Finset.sum_congr rfl fun e _ => ?_
  have he := contrEquiv1_symm_val dot_S512x64_S64x2048_S512x2048_1_0_0_1_n_n 64 rfl rfl e
  have el : dot_S512x64_S64x2048_S512x2048_1_0_0_1_n_n.lhsIdx (ix2 p q) ((contrEquiv1 dot_S512x64_S64x2048_S512x2048_1_0_0_1_n_n 64 rfl rfl).symm e) = ix2 p e := funext fun a => Fin.ext (by
    match a with
    | ⟨0, _⟩ => exact scoreProduct_lhs0 _ _
    | ⟨1, _⟩ => exact (scoreProduct_lhs1 _ _).trans he)
  have er : dot_S512x64_S64x2048_S512x2048_1_0_0_1_n_n.rhsIdx (ix2 p q) ((contrEquiv1 dot_S512x64_S64x2048_S512x2048_1_0_0_1_n_n 64 rfl rfl).symm e) = ix2 e q := funext fun a => Fin.ext (by
    match a with
    | ⟨0, _⟩ => exact (scoreProduct_rhs0 _ _).trans he
    | ⟨1, _⟩ => exact scoreProduct_rhs1 _ _)
  rw [el, er]

theorem valueProduct_lhs0 (j : S512x64.Idx) (k : dot_S512x2048_S2048x64_S512x64_1_0_0_1_n_n.contr.Idx) : (dot_S512x2048_S2048x64_S512x64_1_0_0_1_n_n.lhsIdx j k 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem valueProduct_lhs1 (j : S512x64.Idx) (k : dot_S512x2048_S2048x64_S512x64_1_0_0_1_n_n.contr.Idx) : (dot_S512x2048_S2048x64_S512x64_1_0_0_1_n_n.lhsIdx j k 1).val = (k ⟨0, by decide⟩).val :=
  dot_S512x2048_S2048x64_S512x64_1_0_0_1_n_n.lhsIdx_val_of_single rfl j k
theorem valueProduct_rhs0 (j : S512x64.Idx) (k : dot_S512x2048_S2048x64_S512x64_1_0_0_1_n_n.contr.Idx) : (dot_S512x2048_S2048x64_S512x64_1_0_0_1_n_n.rhsIdx j k 0).val = (k ⟨0, by decide⟩).val :=
  dot_S512x2048_S2048x64_S512x64_1_0_0_1_n_n.rhsIdx_val_of_single rfl j k
theorem valueProduct_rhs1 (j : S512x64.Idx) (k : dot_S512x2048_S2048x64_S512x64_1_0_0_1_n_n.contr.Idx) : (dot_S512x2048_S2048x64_S512x64_1_0_0_1_n_n.rhsIdx j k 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times value rows: entry `(p, q)` sums over the 2048 key positions. -/
theorem valueProduct_apply {φ₁ φ₂ : FTy} (l : FVec Ideal S512x2048 φ₁) (w : FVec Ideal S2048x64 φ₂) (p : Fin 512) (q : Fin 64) :
    matmul dot_S512x2048_S2048x64_S512x64_1_0_0_1_n_n none l w (constant S512x64 .f32 0x00000000#32) (ix2 p q)
      = ∑ e : Fin 2048, l (ix2 p e) * w (ix2 e q) := by
  simp only [matmul]
  rw [Ideal.matmul_constant_zero_apply, ← Equiv.sum_comp (contrEquiv1 dot_S512x2048_S2048x64_S512x64_1_0_0_1_n_n 2048 rfl rfl).symm]
  refine Finset.sum_congr rfl fun e _ => ?_
  have he := contrEquiv1_symm_val dot_S512x2048_S2048x64_S512x64_1_0_0_1_n_n 2048 rfl rfl e
  have el : dot_S512x2048_S2048x64_S512x64_1_0_0_1_n_n.lhsIdx (ix2 p q) ((contrEquiv1 dot_S512x2048_S2048x64_S512x64_1_0_0_1_n_n 2048 rfl rfl).symm e) = ix2 p e := funext fun a => Fin.ext (by
    match a with
    | ⟨0, _⟩ => exact valueProduct_lhs0 _ _
    | ⟨1, _⟩ => exact (valueProduct_lhs1 _ _).trans he)
  have er : dot_S512x2048_S2048x64_S512x64_1_0_0_1_n_n.rhsIdx (ix2 p q) ((contrEquiv1 dot_S512x2048_S2048x64_S512x64_1_0_0_1_n_n 2048 rfl rfl).symm e) = ix2 e q := funext fun a => Fin.ext (by
    match a with
    | ⟨0, _⟩ => exact (valueProduct_rhs0 _ _).trans he
    | ⟨1, _⟩ => exact valueProduct_rhs1 _ _)
  rw [el, er]

end Cert.KernelIdeal.Body

end
-- ==== Proof.AttnSpec.lean ====
/-
  Scaled dot-product attention with an additive bias, as a function of the arrays, written by coordinates.

  For a head `b`, a query row `r` and a key row `k` the score is the inner product of query row `r` and key row `k`
  (over the 64 features), scaled, plus the bias of key `k`. A row's weights are `exp (score - row maximum)`, and the
  output at feature `d` is the weighted average of the value rows' feature `d`.

  Two arrangements of this are stated. In the first the scale is a product with one eighth and the weighted sum of the
  value rows is divided ONCE by the sum of the weights. In the second the scale is a quotient by the square root of
  sixty-four and each weight is divided by the sum of the weights BEFORE it multiplies its value row. They are the same
  function on extended reals whose entries are real numbers (`AttnAlgebra`); this module only states them.
-/
import Idealize.ShloMosaic.PureOps.Ideal
import Idealize.ShloMosaic.Lib.ValueIdx

noncomputable section

namespace Cert.Attn

open Idealize.ShloMosaic Idealize.ShloMosaic.ValueIdx

/-- Queries, keys and values: 64 heads, 2048 rows, 64 features. -/
abbrev SHRD : Shape := ⟨3, ![64, 2048, 64]⟩
/-- The bias: per head, one row of 2048 key positions. -/
abbrev SBias : Shape := ⟨3, ![64, 1, 2048]⟩

/-- One eighth, as the f32 pattern that spells it. -/
abbrev eighth : EReal := Ideal.ofBits .f32 0x3E000000#32
/-- Sixty-four, as the f32 pattern that spells it. -/
abbrev sixtyFour : EReal := Ideal.ofBits .f32 0x42800000#32
/-- The f32 pattern of minus infinity: where a running maximum starts. -/
abbrev negInf : EReal := Ideal.ofBits .f32 0xFF800000#32

variable (Q K V : SHRD.Idx → EReal) (B : SBias.Idx → EReal)

/-- The inner product of query row `r` and key row `k` of head `b`. -/
def dotQK (b : Fin 64) (r k : Fin 2048) : EReal := ∑ e : Fin 64, Q (ix3 b r e) * K (ix3 b k e)

/-! ## The first arrangement: scale by a product, divide the weighted sum once -/

def scoreMul (b : Fin 64) (r k : Fin 2048) : EReal := dotQK Q K b r k * eighth + B (ix3 b (0 : Fin 1) k)

def rowMaxMul (b : Fin 64) (r : Fin 2048) : EReal :=
  (Finset.univ : Finset (Fin 2048)).fold max negInf (fun k => scoreMul Q K B b r k)

def weightMul (b : Fin 64) (r k : Fin 2048) : EReal := Ideal.exp (scoreMul Q K B b r k - rowMaxMul Q K B b r)

/-- The weighted sum of the value rows' feature `d`, divided by the sum of the weights. -/
def attnDivOnce (b : Fin 64) (r : Fin 2048) (d : Fin 64) : EReal :=
  Ideal.div (∑ k : Fin 2048, weightMul Q K B b r k * V (ix3 b k d)) (∑ k : Fin 2048, weightMul Q K B b r k)

/-! ## The second arrangement: scale by a quotient, normalize each weight first -/

def scoreDiv (b : Fin 64) (r k : Fin 2048) : EReal :=
  Ideal.div (dotQK Q K b r k) (Ideal.sqrt sixtyFour) + B (ix3 b (0 : Fin 1) k)

def rowMaxDiv (b : Fin 64) (r : Fin 2048) : EReal :=
  (Finset.univ : Finset (Fin 2048)).fold max negInf (fun k => scoreDiv Q K B b r k)

def weightDiv (b : Fin 64) (r k : Fin 2048) : EReal := Ideal.exp (scoreDiv Q K B b r k - rowMaxDiv Q K B b r)

/-- Each weight divided by the sum of the weights, then the sum of the normalized weights times the value rows' feature `d`. -/
def attnDivEach (b : Fin 64) (r : Fin 2048) (d : Fin 64) : EReal :=
  ∑ k : Fin 2048, Ideal.div (weightDiv Q K B b r k) (∑ k' : Fin 2048, weightDiv Q K B b r k') * V (ix3 b k d)

end Cert.Attn

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.AttnTile.lean ====
/-
  The attention tile a grid point computes, read at an entry.

  From a block of 512 query rows, the head's 2048 key rows, its 2048 value rows and its row of 2048 biases, the tile is:
  scores (query row · key row, times one eighth, plus the key's bias), per row their maximum, the weights
  `exp (score - row maximum)`, per row their sum, and the weighted sum of the value rows divided by that sum. Each
  stage is read at an entry by its coordinates; a change of float format is the identity on extended reals, so the
  two narrowings in front of the products drop out. The last lemma says: if the four blocks are the rows of whole arrays
  `Q K V B` for head `b` (the query block starting wherever row `r` of the block is row `r'` of the array), the tile's
  entry `(r, d)` is the specification's first arrangement at `(b, r', d)`.
-/
import proofs.«132619_j33646773796895_2_alg».proof.Proof.Gen.KernelIdeal.Skeleton
import proofs.«132619_j33646773796895_2_alg».proof.Proof.AttnProducts
import proofs.«132619_j33646773796895_2_alg».proof.Proof.AttnSpec
import proofs.«132619_j33646773796895_2_alg».proof.Proof.LibRowOps
import Idealize.ShloMosaic.Lib.ValueLayout

noncomputable section

namespace Cert.KernelIdeal.Body

open Cert.KernelIdeal Cert.KernelIdeal.Gen Idealize.ShloMosaic Idealize.ShloMosaic.ValueIdx Cert.Attn

variable (x0 : Vec Ideal S1x512x64 .f32) (x1 x2 : Vec Ideal S1x2048x64 .f32) (x3 : Vec Ideal S1x1x2048 .f32)

/-- The tile of scores: query block times transposed key block, scaled by one eighth, plus the bias row on every row. -/
def scoreTile : FVec Ideal S512x2048 .f32 :=
  addf (mulf (matmul dot_S512x64_S64x2048_S512x2048_1_0_0_1_n_n none
        (truncf .bf16 (shapeCast S512x64 x0 shapeCasts_S1x512x64_S512x64) bitsLt_bf16_f32)
        (transpose S64x2048 [1, 0] (truncf .bf16 (shapeCast S2048x64 x1 shapeCasts_S1x2048x64_S2048x64) bitsLt_bf16_f32) transposes_S2048x64_p1_0_S64x2048)
        (constant S512x2048 .f32 0x00000000#32))
      (broadcast S512x2048 (Scalar.ofBits .f32 0x3E000000#32)))
    (broadcastTo S512x2048 (shapeCast S1x2048 x3 shapeCasts_S1x1x2048_S1x2048) broadcasts_S1x2048_S512x2048)

/-- A score: the inner product of query row `r` and key row `k` over the 64 features, times one eighth, plus key `k`'s bias. -/
theorem scoreTile_apply (r : Fin 512) (k : Fin 2048) :
    scoreTile x0 x1 x3 (ix2 r k)
      = (∑ e : Fin 64, x0 (ix3 (0 : Fin 1) r e) * x1 (ix3 (0 : Fin 1) k e)) * eighth + x3 (ix3 (0 : Fin 1) (0 : Fin 1) k) := by
  unfold scoreTile
  rw [addf_apply, mulf_apply, scoreProduct_apply, broadcast_apply, broadcastTo_1b_ab_apply, shapeCast_1ab_ab_apply]
  refine congrArg₂ (· + ·) (congrArg₂ (· * ·) (Finset.sum_congr rfl fun e _ => ?_) rfl) rfl
  rw [truncf_apply, shapeCast_1ab_ab_apply, transpose_ix2_apply, truncf_apply, shapeCast_1ab_ab_apply]

/-- The weights of a tile `T` of scores: `exp` of each score minus its row's maximum. -/
def weightTile (T : FVec Ideal S512x2048 .f32) : FVec Ideal S512x2048 .f32 :=
  exp (subf T (broadcastTo S512x2048 (shapeCast S512x1
    (multiReduction .maximumf [1] S512 T 0xFF800000#32 reduces_S512x2048_S512 (.inl rfl) rfl) shapeCasts_S512_S512x1) broadcasts_S512x1_S512x2048))

/-- A weight: `exp` of the score minus the maximum, from minus infinity, over the row's 2048 scores. -/
theorem weightTile_apply (T : FVec Ideal S512x2048 .f32) (r : Fin 512) (k : Fin 2048) :
    weightTile T (ix2 r k)
      = Ideal.exp (T (ix2 r k) - (Finset.univ : Finset (Fin 2048)).fold max negInf (fun k' => T (ix2 r k'))) := by
  unfold weightTile
  show Ideal.exp (T (ix2 r k) - broadcastTo S512x2048 (shapeCast S512x1
    (multiReduction .maximumf [1] S512 T 0xFF800000#32 reduces_S512x2048_S512 (.inl rfl) rfl) shapeCasts_S512_S512x1) broadcasts_S512x1_S512x2048 (ix2 r k)) = _
  rw [Cert.RowOps.spreadColumn_apply]
  exact congrArg (fun z => Ideal.exp (T (ix2 r k) - z)) (Cert.RowOps.laneMax_apply T _ _ _ _ r)

/-- The tile's result is the weighted sum of the value block divided, row by row, by the sum of the weights. -/
theorem pay_eq : k0_pay1 x0 x1 x3 x2
    = shapeCast S1x512x64 (divf
        (matmul dot_S512x2048_S2048x64_S512x64_1_0_0_1_n_n none (truncf .bf16 (weightTile (scoreTile x0 x1 x3)) bitsLt_bf16_f32)
          (truncf .bf16 (shapeCast S2048x64 x2 shapeCasts_S1x2048x64_S2048x64) bitsLt_bf16_f32) (constant S512x64 .f32 0x00000000#32))
        (broadcastTo S512x64 (shapeCast S512x1
          (multiReduction .add [1] S512 (weightTile (scoreTile x0 x1 x3)) 0x00000000#32 reduces_S512x2048_S512 (.inl rfl) rfl) shapeCasts_S512_S512x1) broadcasts_S512x1_S512x64))
      shapeCasts_S512x64_S1x512x64 := rfl

/-- The result at `(0, r, d)`: the sum over the keys of weight times the value row's feature `d`, over the sum of the weights. -/
theorem pay_apply (r : Fin 512) (d : Fin 64) :
    k0_pay1 x0 x1 x3 x2 (ix3 (0 : Fin 1) r d)
      = Ideal.div (∑ k : Fin 2048, weightTile (scoreTile x0 x1 x3) (ix2 r k) * x2 (ix3 (0 : Fin 1) k d))
          (∑ k : Fin 2048, weightTile (scoreTile x0 x1 x3) (ix2 r k)) := by
  rw [pay_eq, shapeCast_ab_1ab_apply, divf_apply, valueProduct_apply, Cert.RowOps.spreadColumn_apply]
  refine congrArg₂ Ideal.div (Finset.sum_congr rfl fun k _ => ?_) (Cert.RowOps.laneSum_apply _ _ _ _ _ r)
  rw [truncf_apply, truncf_apply, shapeCast_1ab_ab_apply]

/-- When the four blocks hold the rows of whole arrays for head `b`, the tile's entry is attention at `(b, r', d)`. -/
theorem pay_attn (Q K V : SHRD.Idx → EReal) (B : SBias.Idx → EReal) (b : Fin 64) (r' : Fin 2048) (r : Fin 512) (d : Fin 64)
    (h0 : ∀ e : Fin 64, x0 (ix3 (0 : Fin 1) r e) = Q (ix3 b r' e))
    (h1 : ∀ (k : Fin 2048) (e : Fin 64), x1 (ix3 (0 : Fin 1) k e) = K (ix3 b k e))
    (h3 : ∀ k : Fin 2048, x3 (ix3 (0 : Fin 1) (0 : Fin 1) k) = B (ix3 b (0 : Fin 1) k))
    (h2 : ∀ k : Fin 2048, x2 (ix3 (0 : Fin 1) k d) = V (ix3 b k d)) :
    k0_pay1 x0 x1 x3 x2 (ix3 (0 : Fin 1) r d) = attnDivOnce Q K V B b r' d := by
  have hs : ∀ k : Fin 2048, scoreTile x0 x1 x3 (ix2 r k) = scoreMul Q K B b r' k := fun k => by
    rw [scoreTile_apply]
    unfold scoreMul dotQK
    simp only [h0, h1, h3]
  have hw : ∀ k : Fin 2048, weightTile (scoreTile x0 x1 x3) (ix2 r k) = weightMul Q K B b r' k := fun k => by
    rw [weightTile_apply]
    unfold weightMul rowMaxMul
    simp only [hs]
  rw [pay_apply]
  unfold attnDivOnce
  simp only [hw, h2]

end Cert.KernelIdeal.Body

end
-- ==== Proof.AttnArray.lean ====
/-
  From what each grid point writes back to the whole output array.

  The grid has 64 × 4 points; point `t` serves head `t / 4` and the query rows `(t % 4) · 512 … (t % 4) · 512 + 511`. Its
  query block and its output block are those 512 rows of the head; its key, value and bias blocks are the head's whole
  2048 rows (the same for the head's four points). So the tile the point computes is, entry by entry, attention of the
  whole arrays at the head and at the query row's position in the array: the point writes back block `t` of ONE
  function of the arrays. Every row of every head lies in exactly the block of the point `head · 4 + row / 512`, so the
  blocks cover the array and the array ends holding that function.
-/
import proofs.«132619_j33646773796895_2_alg».proof.Proof.Gen.KernelIdeal.Value
import proofs.«132619_j33646773796895_2_alg».proof.Proof.AttnTile

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- Attention of whole arrays as an array: at index `i` the head is `i 0`, the query row `i 1`, the feature `i 2`. -/
def attnArray (Q K V : SHRD.Idx → EReal) (B : SBias.Idx → EReal) : S64x2048x64.Idx → EReal :=
  fun i => attnDivOnce Q K V B (i 0) (i 1) (i 2)

/-- The index maps over the grid: the query and output blocks sit at (head, quarter, 0), the key, value and bias blocks
    at (head, 0, 0), with head `t / 4` and quarter `t % 4`. -/
theorem block_indices : ∀ t : Fin cfg0.N,
    win0_4.index t (0 : Fin 3) = t.val / 4 ∧ win0_4.index t (1 : Fin 3) = t.val % 4 ∧ win0_4.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- What point `t` writes back is block `t` of attention of the arrays as the region finds them. -/
theorem flushed_eq (c : Dev nD) (t : Fin cfg0.N) :
    (dats m 0 c).flushed 4 t = ((cfg0.win 4).blk t).view.read (Elt Ideal)
      (attnArray (V m c main_arg0) (V m c main_arg1) (V m c main_arg2) (V m c main_v8)) := by
  rw [Value.flushed4]
  unfold out0_4
  rw [View.canon_unit_zero offsets_zero]
  simp only [View.ld_unit_zero (S := S1x512x64) offsets_zero, View.ld_unit_zero (S := S1x2048x64) offsets_zero,
    View.ld_unit_zero (S := S1x1x2048) offsets_zero]
  obtain ⟨o0, o1, o2, q0, q1, q2, k0, k1, k2, v0, v1, v2, b0, b1, b2⟩ := block_indices t
  have ht : t.val < 256 := Nat.lt_of_lt_of_eq t.isLt N_0
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  have hr : r.val < 512 := r.isLt
  have hd : d.val < 64 := d.isLt
  show k0_pay1 (iblk m c 0 t) (iblk m c 1 t) (iblk m c 3 t) (iblk m c 2 t) (ix3 (0 : Fin 1) r d)
    = attnArray (V m c main_arg0) (V m c main_arg1) (V m c main_arg2) (V m c main_v8) (((cfg0.win 4).blk t).view.emb (ix3 (0 : Fin 1) r d))
  refine (Body.pay_attn (iblk m c 0 t) (iblk m c 1 t) (iblk m c 2 t) (iblk m c 3 t)
    (V m c main_arg0) (V m c main_arg1) (V m c main_arg2) (V m c main_v8)
    ⟨t.val / 4, by omega⟩ ⟨t.val % 4 * 512 + r.val, by omega⟩ r d ?_ ?_ ?_ ?_).trans ?_
  · intro e
    have he : e.val < 64 := e.isLt
    show V m c main_arg0 (((cfg0.win 0).blk t).view.emb (ix3 (0 : Fin 1) r e)) = V m c main_arg0 _
    refine congrArg (V m c main_arg0) (funext fun a => Fin.ext ?_)
    match a with
    | ⟨0, _⟩ => show win0_0.index t (0 : Fin 3) * 1 + 1 * 0 = t.val / 4; omega
    | ⟨1, _⟩ => show win0_0.index t (1 : Fin 3) * 512 + 1 * r.val = t.val % 4 * 512 + r.val; omega
    | ⟨2, _⟩ => show win0_0.index t (2 : Fin 3) * 64 + 1 * e.val = e.val; omega
  · intro k e
    have hk : k.val < 2048 := k.isLt
    have he : e.val < 64 := e.isLt
    show V m c main_arg1 (((cfg0.win 1).blk t).view.emb (ix3 (0 : Fin 1) k e)) = V m c main_arg1 _
    refine congrArg (V m c main_arg1) (funext fun a => Fin.ext ?_)
    match a with
    | ⟨0, _⟩ => show win0_1.index t (0 : Fin 3) * 1 + 1 * 0 = t.val / 4; omega
    | ⟨1, _⟩ => show win0_1.index t (1 : Fin 3) * 2048 + 1 * k.val = k.val; omega
    | ⟨2, _⟩ => show win0_1.index t (2 : Fin 3) * 64 + 1 * e.val = e.val; omega
  · intro k
    have hk : k.val < 2048 := k.isLt
    show V m c main_v8 (((cfg0.win 3).blk t).view.emb (ix3 (0 : Fin 1) (0 : Fin 1) k)) = V m c main_v8 _
    refine congrArg (V m c main_v8) (funext fun a => Fin.ext ?_)
    match a with
    | ⟨0, _⟩ => show win0_3.index t (0 : Fin 3) * 1 + 1 * 0 = t.val / 4; omega
    | ⟨1, _⟩ => show win0_3.index t (1 : Fin 3) * 1 + 1 * 0 = 0; omega
    | ⟨2, _⟩ => show win0_3.index t (2 : Fin 3) * 2048 + 1 * k.val = k.val; omega
  · intro k
    have hk : k.val < 2048 := k.isLt
    show V m c main_arg2 (((cfg0.win 2).blk t).view.emb (ix3 (0 : Fin 1) k d)) = V m c main_arg2 _
    refine congrArg (V m c main_arg2) (funext fun a => Fin.ext ?_)
    match a with
    | ⟨0, _⟩ => show win0_2.index t (0 : Fin 3) * 1 + 1 * 0 = t.val / 4; omega
    | ⟨1, _⟩ => show win0_2.index t (1 : Fin 3) * 2048 + 1 * k.val = k.val; omega
    | ⟨2, _⟩ => show win0_2.index t (2 : Fin 3) * 64 + 1 * d.val = d.val; omega
  · unfold attnArray
    refine congr (congr (congrArg (attnDivOnce (V m c main_arg0) (V m c main_arg1) (V m c main_arg2) (V m c main_v8)) (Fin.ext ?_)) (Fin.ext ?_)) (Fin.ext ?_)
    · show t.val / 4 = win0_4.index t (0 : Fin 3) * 1 + 1 * 0; omega
    · show t.val % 4 * 512 + r.val = win0_4.index t (1 : Fin 3) * 512 + 1 * r.val; omega
    · show d.val = win0_4.index t (2 : Fin 3) * 64 + 1 * d.val; omega

/-- An index of the array is in point `t`'s output block iff each coordinate is in the block's range on its axis. -/
theorem mem_block (t : Fin cfg0.N) (i : S64x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v9).slice (win0_4.rect t)).set ↔ _
  rw [View.set_slice_whole, Rect.mem_set_unit]
  exact Iff.rfl

/-- Every index of the output array is in the block of the point `head · 4 + row / 512`. -/
theorem covered (i : S64x2048x64.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 64 := (i 2).isLt
  have hN : (i 0).val * 4 + (i 1).val / 512 < cfg0.N := by
    show _ < grid0.N
    rw [N_0]; omega
  refine ⟨⟨(i 0).val * 4 + (i 1).val / 512, hN⟩, flush0_4 _, ?_⟩
  rw [mem_block]
  obtain ⟨o0, o1, o2, -⟩ := block_indices ⟨(i 0).val * 4 + (i 1).val / 512, hN⟩
  have e0 : win0_4.index ⟨(i 0).val * 4 + (i 1).val / 512, hN⟩ (0 : Fin 3) = ((i 0).val * 4 + (i 1).val / 512) / 4 := o0
  have e1 : win0_4.index ⟨(i 0).val * 4 + (i 1).val / 512, hN⟩ (1 : Fin 3) = ((i 0).val * 4 + (i 1).val / 512) % 4 := o1
  intro a
  match a with
  | ⟨0, _⟩ =>
    show win0_4.index ⟨(i 0).val * 4 + (i 1).val / 512, hN⟩ (0 : Fin 3) * 1 ≤ (i 0).val ∧ (i 0).val < win0_4.index ⟨(i 0).val * 4 + (i 1).val / 512, hN⟩ (0 : Fin 3) * 1 + 1
    omega
  | ⟨1, _⟩ =>
    show win0_4.index ⟨(i 0).val * 4 + (i 1).val / 512, hN⟩ (1 : Fin 3) * 512 ≤ (i 1).val ∧ (i 1).val < win0_4.index ⟨(i 0).val * 4 + (i 1).val / 512, hN⟩ (1 : Fin 3) * 512 + 512
    omega
  | ⟨2, _⟩ =>
    show win0_4.index ⟨(i 0).val * 4 + (i 1).val / 512, hN⟩ (2 : Fin 3) * 64 ≤ (i 2).val ∧ (i 2).val < win0_4.index ⟨(i 0).val * 4 + (i 1).val / 512, hN⟩ (2 : Fin 3) * 64 + 64
    omega

/-- The output array after the run is attention of the arrays as the region finds them. -/
theorem final (c : Dev nD) :
    (dats m 0 c).arrAt 4 cfg0.N = attnArray (V m c main_arg0) (V m c main_arg1) (V m c main_arg2) (V m c main_v8) :=
  (dats m 0 c).arrAt_eq_of_cover 4 _ (fun t _ => flushed_eq m c t) covered

/-- The kernel's run with its result named: attention of the argument arrays and the bias array the host operations
    leave, the arguments unchanged. -/
theorem run : θ_run defs (onTc (τ := τ) (main (F := Ideal))) ⟨m, fun _ => 0, ρ⟩ fun r => ∀ c : Dev nD,
      r.2.mem ((c : Thread nD τ).loc main_v9)
        = attnArray (m ((c : Thread nD τ).loc main_arg0)) (m ((c : Thread nD τ).loc main_arg1)) (m ((c : Thread nD τ).loc main_arg2)) (V m c main_v8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0, V_main_arg1, V_main_arg2])), (h c).2⟩)
    (Value.run_blocks m ρ)

end Cert.KernelIdeal.Whole

end
-- ==== Proof.AttnAlgebra.lean ====
/-
  The two arrangements of scaled dot-product attention stated in `AttnSpec` are the same function on extended reals
  whose entries are real numbers.

  Two laws join them. The scale: a quotient by the square root of sixty-four is a quotient by eight, and
  `x / 8 = x · (1/8)` for EVERY extended real `x`, so the scores, the row maxima and the weights of the two arrangements
  agree with no hypothesis. The normalization: when the weights `w k`, their sum `L ≠ 0` and the values `v k` are real
  numbers, a quotient by `L` is a product with the real `1 / L`, and that product distributes over the finite sum:
  `∑ k, (w k / L) · v k = (∑ k, w k · v k) / L`.

  The hypothesis of the second law is met because the entries are real: every score is then a real (a finite sum of
  products of reals, times a real, plus a real), the maximum of the 2048 scores of a row is a real (it is at least the
  first of them and below `⊤`), so every weight is the exponential of a real — a positive real — and the sum of the
  weights is positive.
-/
import proofs.«132619_j33646773796895_2_alg».proof.Proof.AttnSpec

noncomputable section

namespace Cert.Attn

open Idealize.ShloMosaic Idealize.ShloMosaic.ValueIdx

/-! ## The three constants, and the square root of sixty-four -/

/-- The pattern `0x3E000000` denotes the real `1/8`. -/
theorem eighth_eq : eighth = ((1 / 8 : ℝ) : EReal) := by
  simp [Ideal.ofBits, Ideal.ieee, -EReal.coe_mul]; norm_num

/-- The pattern `0x42800000` denotes the real `64`. -/
theorem sixtyFour_eq : sixtyFour = ((64 : ℝ) : EReal) := by
  simp [Ideal.ofBits, Ideal.ieee, -EReal.coe_mul]; norm_num

/-- The pattern `0xFF800000` denotes `⊥`. -/
theorem negInf_eq : negInf = ⊥ := by
  simp [Ideal.ofBits, Ideal.ieee]

/-- The square root of sixty-four is eight. -/
theorem sqrt_sixtyFour : Ideal.sqrt sixtyFour = ((8 : ℝ) : EReal) := by
  rw [sixtyFour_eq, Ideal.sqrt_coe, if_neg (by norm_num)]
  congr 1
  rw [show (64 : ℝ) = 8 ^ 2 by norm_num, Real.sqrt_sq (by norm_num)]

/-! ## Finite sums and maxima of reals, inside the extended reals -/

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, starting from `⊥`, of a nonempty finite family of reals is a real: it is at least one of them, so
    not `⊥`, and all of them are below `⊤`, so it is. -/
theorem fold_max_coe_real {ι : Type} (t : Finset ι) (ht : t.Nonempty) (s : ι → ℝ) :
    ∃ m : ℝ, t.fold max (⊥ : EReal) (fun k => ((s k : ℝ) : EReal)) = (m : EReal) := by
  obtain ⟨k0, hk0⟩ := ht
  have hbot : t.fold max (⊥ : EReal) (fun k => ((s k : ℝ) : EReal)) ≠ ⊥ := by
    have hle : ((s k0 : ℝ) : EReal) ≤ t.fold max (⊥ : EReal) (fun k => ((s k : ℝ) : EReal)) :=
      (Finset.le_fold_max _).mpr (Or.inr ⟨k0, hk0, le_rfl⟩)
    intro h
    rw [h] at hle
    exact absurd hle (not_le.mpr (EReal.bot_lt_coe _))
  have htop : t.fold max (⊥ : EReal) (fun k => ((s k : ℝ) : EReal)) ≠ ⊤ :=
    ((Finset.fold_max_lt _).mpr ⟨bot_lt_top, fun x _ => EReal.coe_lt_top _⟩).ne
  exact ⟨_, (EReal.coe_toReal htop hbot).symm⟩

/-- A quotient by a nonzero real sum distributes over a finite sum of reals: normalizing each weight first, or dividing
    the weighted sum once, is the same. -/
theorem sum_div_mul_eq_div_sum {ι : Type} (t : Finset ι) (w v : ι → ℝ) (hL : ∑ k ∈ t, w k ≠ 0) :
    ∑ k ∈ t, Ideal.div ((w k : ℝ) : EReal) (∑ k' ∈ t, ((w k' : ℝ) : EReal)) * ((v k : ℝ) : EReal)
      = Ideal.div (∑ k ∈ t, ((w k : ℝ) : EReal) * ((v k : ℝ) : EReal)) (∑ k ∈ t, ((w k : ℝ) : EReal)) := by
  rw [coe_sum t w]
  simp only [Ideal.div_coe hL, ← EReal.coe_mul, coe_sum]
  congr 1
  rw [Finset.sum_mul]
  exact Finset.sum_congr rfl fun k _ => by ring

variable (Q K V : SHRD.Idx → EReal) (B : SBias.Idx → EReal)

/-! ## The scale: a quotient by eight is a product with one eighth -/

/-- The two scores agree on all extended reals: `x / √64 = x / 8 = x · (1/8)`. -/
theorem scoreDiv_eq_scoreMul (b : Fin 64) (r k : Fin 2048) : scoreDiv Q K B b r k = scoreMul Q K B b r k := by
  unfold scoreDiv scoreMul
  rw [sqrt_sixtyFour, Ideal.div_coe (by norm_num), eighth_eq]

/-- So the two row maxima agree. -/
theorem rowMaxDiv_eq_rowMaxMul (b : Fin 64) (r : Fin 2048) : rowMaxDiv Q K B b r = rowMaxMul Q K B b r := by
  unfold rowMaxDiv rowMaxMul
  simp only [scoreDiv_eq_scoreMul]

/-- So the two weights agree. -/
theorem weightDiv_eq_weightMul (b : Fin 64) (r k : Fin 2048) : weightDiv Q K B b r k = weightMul Q K B b r k := by
  unfold weightDiv weightMul
  rw [scoreDiv_eq_scoreMul, rowMaxDiv_eq_rowMaxMul]

/-! ## Real entries give real scores and positive real weights -/

/-- With real queries, keys and biases every score of a row is a real. -/
theorem scoreMul_real (hQ : ∀ i, ∃ x : ℝ, Q i = (x : EReal)) (hK : ∀ i, ∃ x : ℝ, K i = (x : EReal))
    (hB : ∀ i, ∃ x : ℝ, B i = (x : EReal)) (b : Fin 64) (r : Fin 2048) :
    ∃ s : Fin 2048 → ℝ, ∀ k, scoreMul Q K B b r k = ((s k : ℝ) : EReal) := by
  choose q hq using hQ
  choose kk hk using hK
  choose bb hb using hB
  refine ⟨fun k => (∑ e : Fin 64, q (ix3 b r e) * kk (ix3 b k e)) * (1 / 8) + bb (ix3 b (0 : Fin 1) k), fun k => ?_⟩
  unfold scoreMul dotQK
  simp only [hq, hk, hb, eighth_eq, ← EReal.coe_mul, coe_sum, ← EReal.coe_add]

/-- With real queries, keys and biases every weight of a row is a positive real: the exponential of a real score minus
    the real row maximum. -/
theorem weightMul_pos_real (hQ : ∀ i, ∃ x : ℝ, Q i = (x : EReal)) (hK : ∀ i, ∃ x : ℝ, K i = (x : EReal))
    (hB : ∀ i, ∃ x : ℝ, B i = (x : EReal)) (b : Fin 64) (r : Fin 2048) :
    ∃ w : Fin 2048 → ℝ, (∀ k, 0 < w k) ∧ ∀ k, weightMul Q K B b r k = ((w k : ℝ) : EReal) := by
  obtain ⟨s, hs⟩ := scoreMul_real Q K B hQ hK hB b r
  obtain ⟨m, hm⟩ := fold_max_coe_real (Finset.univ : Finset (Fin 2048)) ⟨0, Finset.mem_univ _⟩ s
  refine ⟨fun k => Real.exp (s k - m), fun k => Real.exp_pos _, fun k => ?_⟩
  unfold weightMul rowMaxMul
  simp only [hs]
  rw [negInf_eq, hm, ← EReal.coe_sub, Ideal.exp_coe]

/-! ## The two arrangements agree -/

/-- Normalizing each weight before it multiplies its value row, with the scale a quotient by `√64`, gives the same
    output as dividing the weighted sum once, with the scale a product with `1/8`, when all entries are real. -/
theorem attnDivEach_eq_attnDivOnce (Q K V : SHRD.Idx → EReal) (B : SBias.Idx → EReal)
    (hQ : ∀ i, ∃ x : ℝ, Q i = (x : EReal)) (hK : ∀ i, ∃ x : ℝ, K i = (x : EReal))
    (hV : ∀ i, ∃ x : ℝ, V i = (x : EReal)) (hB : ∀ i, ∃ x : ℝ, B i = (x : EReal))
    (b : Fin 64) (r : Fin 2048) (d : Fin 64) :
    attnDivEach Q K V B b r d = attnDivOnce Q K V B b r d := by
  obtain ⟨w, hwpos, hw⟩ := weightMul_pos_real Q K B hQ hK hB b r
  choose v hv using hV
  have hL : ∑ k : Fin 2048, w k ≠ 0 :=
    (Finset.sum_pos (fun k _ => hwpos k) ⟨0, Finset.mem_univ _⟩).ne'
  unfold attnDivEach attnDivOnce
  simp only [weightDiv_eq_weightMul, hw, hv]
  exact sum_div_mul_eq_div_sum Finset.univ w (fun k => v (ix3 b k d)) hL

end Cert.Attn

end
-- ==== Proof.LibLastAxisMax.lean ====
/-
  The host's maximum over the LAST axis of an `[n, a, b]` array, read at an index written by its coordinates.

  A softmax over the last axis takes, for each `(k, p)`, the maximum of the `b` entries `(k, p, c)`. At the ideal values
  the host's reduction is the fold of `max`, from the initial value, over `c : Fin b` of those entries: no order of
  evaluation is left in it. Nothing here mentions a program.
-/
import Idealize.ShloMosaic.PureOps.Ideal.Laws
import Idealize.ShloMosaic.Lib.Pipeline.Value
import Idealize.ShloMosaic.Lib.ValueIdx

namespace Cert.LastAxisMax

open Idealize.ShloMosaic Idealize.ShloMosaic.ValueIdx

variable {φ : FTy}

/-- The host's maximum over the LAST axis of an `[n, a, b]` array, at `(k, p)`: the fold of `max`, from the initial value,
    over `c : Fin b` of the entries `(k, p, c)`. -/
theorem hostLastMax_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.maximumf (F := Ideal) (φ := φ)) x init h' hu (ix2 k p)
      = (Finset.univ : Finset (Fin b)).fold max (init (Shape.Idx.first hu)) (fun c => x (ix3 k p c)) := by
  refine (Host.reduce_eq_fold_single (FloatOps.maximumf (F := Ideal) (φ := φ)) x init h' h hu (ix2 k p)).trans ?_
  show (Finset.univ : Finset (Fin b)).fold max (init (Shape.Idx.first hu)) (fun c => x (h.lift (ix2 k p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl | ⟨2, _⟩ => rfl))

end Cert.LastAxisMax
-- ==== Proof.AttnReference.lean ====
/-
  The reference program's result, read at an entry, is scaled dot-product attention in the second arrangement of
  `AttnSpec`: the scale a quotient by the square root of sixty-four, each weight divided by the sum of its row's weights
  before it multiplies its value row.

  The reference is read one host operation at a time through the generated stages `val_main_vN` and their reading
  lemmas, at explicit coordinates. The score at `(b, r, k)` is the inner product of query row `r` and key row `k` over the
  64 features, divided by `√64`, plus the bias at `(b, 0, k)`; the bias array is kept as the stage that computes it. The row
  maximum is a fold of `max` over the last axis starting from `-∞`, then a maximum with `-∞` once more, which changes
  nothing (`max a m = m` when `a ≤ m`, and the fold is at least its starting value). The weight is the exponential of the
  score minus the row maximum; the sum of a row's weights starts from `0`; the result is the sum over `k` of the
  normalized weight times the value row's feature.

  The one operation the generated module does not read, the maximum over the last axis, is read by
  `LibLastAxisMax`'s `hostLastMax_apply`.
-/
import proofs.«132619_j33646773796895_2_alg».proof.Proof.Gen.ReferenceIdeal.Read
import proofs.«132619_j33646773796895_2_alg».proof.Proof.AttnSpec
import proofs.«132619_j33646773796895_2_alg».proof.Proof.LibLastAxisMax

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : SHRD.Idx → EReal) (x3 : (⟨S4x2048, .i32⟩ : BufTy).Contents (Elt Ideal))

/-- The reference's score at `(b, r, k)` is the specification's score in the second arrangement. -/
theorem score_apply (b : Fin 64) (r k : Fin 2048) :
    val_main_v14 (F := Ideal) x0 x1 x3 (ix3 b r k) = scoreDiv x0 x1 (val_main_v12 (F := Ideal) x3) b r k := by
  rw [val_main_v14_apply, val_main_v3_apply, val_main_v0_apply, val_main_v2_apply, val_main_v1_apply, val_main_cst_apply,
    val_main_v13_apply]
  unfold scoreDiv dotQK
  have e1 : ∀ e : Fin 64, lidx_main_v0 (ix3 b r k) e = ix3 b r e := fun e =>
    funext fun a => Fin.ext (by match a with | ⟨0, _⟩ => rfl | ⟨1, _⟩ => rfl | ⟨2, _⟩ => rfl)
  have e2 : ∀ e : Fin 64, ridx_main_v0 (ix3 b r k) e = ix3 b k e := fun e =>
    funext fun a => Fin.ext (by match a with | ⟨0, _⟩ => rfl | ⟨1, _⟩ => rfl | ⟨2, _⟩ => rfl)
  have e3 : idx_main_v13 (ix3 b r k) = ix3 b (0 : Fin 1) k :=
    funext fun a => Fin.ext (by match a with | ⟨0, _⟩ => rfl | ⟨1, _⟩ => rfl | ⟨2, _⟩ => rfl)
  simp only [e1, e2, e3]
  rfl

/-- The reference's scores shape drops its last axis to the row shape. -/
theorem reduces_last : S64x2048x2048.Reduces [2] S64x2048 := by decide

/-- The reference's row maximum at `(b, r)` is the specification's: the maximum with `-∞` of a fold of `max` that already
    starts from `-∞` is that fold. -/
theorem rowMax_apply (b : Fin 64) (r : Fin 2048) :
    val_main_v17 (F := Ideal) x0 x1 x3 (ix2 b r) = rowMaxDiv x0 x1 (val_main_v12 (F := Ideal) x3) b r := by
  rw [val_main_v17_apply, val_main_v16_apply, val_main_cst_2_apply]
  unfold val_main_v15
  rw [Cert.LastAxisMax.hostLastMax_apply (val_main_v14 (F := Ideal) x0 x1 x3) (val_main_cst_1 (F := Ideal))
    reducesTo_S64x2048x2048_S64x2048_d2 reduces_last h_S_ b r]
  simp only [score_apply]
  unfold rowMaxDiv
  exact max_eq_right ((Finset.le_fold_max _).mpr (Or.inl le_rfl))

/-- The reference's weight at `(b, r, k)` is the specification's: the exponential of the score minus the row maximum. -/
theorem weight_apply (b : Fin 64) (r k : Fin 2048) :
    val_main_v21 (F := Ideal) x0 x1 x3 (ix3 b r k) = weightDiv x0 x1 (val_main_v12 (F := Ideal) x3) b r k := by
  rw [val_main_v21_apply, val_main_v20_apply, val_main_v19_apply, val_main_v18_apply, score_apply]
  have e : idx_main_v18 (idx_main_v19 (ix3 b r k)) = ix2 b r :=
    funext fun a => Fin.ext (by match a with | ⟨0, _⟩ => rfl | ⟨1, _⟩ => rfl)
  rw [e, rowMax_apply]
  rfl

/-- The reference's sum of a row's weights, spread back over the row, is the specification's sum of weights. -/
theorem weightSum_apply (b : Fin 64) (r k : Fin 2048) :
    val_main_v24 (F := Ideal) x0 x1 x3 (ix3 b r k) = ∑ k' : Fin 2048, weightDiv x0 x1 (val_main_v12 (F := Ideal) x3) b r k' := by
  rw [val_main_v24_apply, val_main_v23_apply, val_main_v22_apply, val_main_cst_3_apply]
  have e : ∀ k' : Fin 2048, idx_main_v22 (idx_main_v23 (idx_main_v24 (ix3 b r k))) k' = ix3 b r k' := fun k' =>
    funext fun a => Fin.ext (by match a with | ⟨0, _⟩ => rfl | ⟨1, _⟩ => rfl | ⟨2, _⟩ => rfl)
  simp only [e, weight_apply]
  rw [Ideal.ofBits_def, Ideal.ofBits_zero_f32, zero_add]

/-- The reference's result at `(b, r, d)` is the specification's second arrangement. -/
theorem ref_apply (x0 x1 x2 : Cert.Attn.SHRD.Idx → EReal) (x3 : (⟨Cert.ReferenceIdeal.S4x2048, .i32⟩ : BufTy).Contents (Elt Ideal))
    (b : Fin 64) (r : Fin 2048) (d : Fin 64) :
    Cert.ReferenceIdeal.Read.val_main_v26 (F := Ideal) x0 x1 x2 x3 (ValueIdx.ix3 b r d)
      = Cert.Attn.attnDivEach x0 x1 x2 (Cert.ReferenceIdeal.Read.val_main_v12 (F := Ideal) x3) b r d := by
  rw [val_main_v26_apply]
  unfold attnDivEach
  refine Finset.sum_congr rfl fun k _ => ?_
  have el : lidx_main_v26 (ix3 b r d) k = ix3 b r k :=
    funext fun a => Fin.ext (by match a with | ⟨0, _⟩ => rfl | ⟨1, _⟩ => rfl | ⟨2, _⟩ => rfl)
  have er : ridx_main_v26 (ix3 b r d) k = ix3 b k d :=
    funext fun a => Fin.ext (by match a with | ⟨0, _⟩ => rfl | ⟨1, _⟩ => rfl | ⟨2, _⟩ => rfl)
  rw [el, er, val_main_v25_apply, weight_apply, weightSum_apply]
  rfl

end Cert.ReferenceIdeal.RefValue

end
-- ==== Proof.AttnBias.lean ====
/-
  The additive bias array. Both programs compute it on the host from the integer mask `main_arg3 : i32[4, 2048]`:
  the comparison `mask == 0` converted to a float (0 or 1), tiled to `[64, 2048]`, times the f32 constant of pattern
  `0xAEDBE6FF`, as an array `[64, 1, 2048]`. The reference broadcasts the tiled mask to `[64, 1, 2048]` first and
  multiplies after; the kernel multiplies the `[64, 2048]` arrays first and broadcasts the product after. A broadcast
  of an entrywise product is the entrywise product of the broadcasts, and a splat constant reads its one value at every
  index, so the two arrays agree entry by entry (`kernel_bias_eq`). Each entry is a natural number (the comparison
  bit read unsigned) times the constant; the constant's exponent field is 93, neither zero nor all ones, so it
  denotes a real, and a product of two reals is a real (`bias_real`).
-/
import proofs.«132619_j33646773796895_2_alg».proof.Proof.Gen.KernelIdeal.Frame
import proofs.«132619_j33646773796895_2_alg».proof.Proof.Gen.ReferenceIdeal.Read
import Idealize.ShloMosaic.Lib.StableHlo.Run
import Idealize.ShloMosaic.Lib.ValueIdx

noncomputable section

namespace Cert.AttnBias

open Idealize.ShloMosaic Idealize.ShloMosaic.TcCoe Idealize.SL.Sem Idealize.ShloMosaic.StableHlo
open Cert.ReferenceIdeal.Read

/-- The f32 pattern `0xAEDBE6FF` denotes a real: its exponent field is 93, neither all ones (an infinity or a NaN)
    nor zero (a subnormal), so it is the normal number `-(2^23 + fraction) * 2^(93 - 127 - 23)`. -/
theorem cst_real : ∃ k : ℝ, Ideal.ofBits .f32 0xAEDBE6FF#32 = (k : EReal) := by
  have hex : ((0xAEDBE6FF#32 : BitVec 32).extractLsb' 23 8).toNat = 93 := by decide
  unfold Ideal.ofBits Ideal.ieee
  simp only [hex]
  rw [if_neg (by norm_num), if_neg (by norm_num)]
  exact ⟨_, rfl⟩

/-- Every entry of the reference's bias array is a real: a natural number times the real constant. -/
theorem bias_real (x3 : (⟨Cert.ReferenceIdeal.S4x2048, .i32⟩ : BufTy).Contents (Elt Ideal)) (i : Cert.ReferenceIdeal.S64x1x2048.Idx) :
    ∃ r : ℝ, Cert.ReferenceIdeal.Read.val_main_v12 (F := Ideal) x3 i = (r : EReal) := by
  -- read the product at `i`, the tiled mask back to the converted comparison bit, the constant factor at its one index
  rw [val_main_v12_apply, val_main_v10_apply, val_main_v9_apply, val_main_v8_apply, val_main_v7_apply, val_main_v6_apply,
    val_main_v11_apply, val_main_cst_0_apply]
  -- at the ideal instance the conversion is the word's unsigned value as a real, and the product the extended reals'
  show ∃ r : ℝ, (((val_main_v5 (F := Ideal) x3 (idx_main_v7 (idx_main_v8 (idx_main_v9 (idx_main_v10 i))))).toNat : ℝ) : EReal)
      * Ideal.ofBits .f32 0xAEDBE6FF#32 = (r : EReal)
  obtain ⟨k, hk⟩ := cst_real
  rw [hk, ← EReal.coe_mul]
  exact ⟨_, rfl⟩

/-- The bias array the kernel's region finds is the reference's: at an index `i` both are the tiled mask at
    `(i 0, i 2)` times the constant — the kernel's broadcast reads the product there, the reference's product
    multiplies the two broadcasts' readings there — and the two programs tile the mask by the same operations. -/
theorem kernel_bias_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v8 : Cert.KernelIdeal.S64x1x2048.Idx → EReal)
      = Cert.ReferenceIdeal.Read.val_main_v12 (F := Ideal) (m ((c.tc : Thread Cert.KernelIdeal.nD Cert.KernelIdeal.τ).loc Cert.KernelIdeal.main_arg3)) := by
  -- the kernel's array as the composed term of its host operations over `main_arg3`
  dsimp only [Cert.KernelIdeal.Gen.V, Cert.KernelIdeal.Gen.hostOps0]
  after_results
  -- entry by entry the two composed terms unfold to the same expression
  funext i
  rfl

end Cert.AttnBias

end
-- ==== Proof.FiniteInputs.lean ====
/-
  From the precondition to real-valued argument arrays. The certificate's precondition `finite_inputs` is, for each
  of the three float argument arrays, the conjunction over all entries of `|x| < +inf`, and the conjunction of the
  three scalars; the claim states that it is 1. Each all-reduction that is 1 had a 1 at every index (`Host.reduce_andi_all`), so
  entrywise the comparison `|x| < +inf` holds; at the ideal instance `|x|` is `max x (-x)` and the pattern
  `0x7F800000` denotes `⊤`, and an extended real whose absolute value is below `⊤` is neither `⊥` nor `⊤`:
  it is a real. So every entry of the three float argument arrays is a real number.
-/
import proofs.«132619_j33646773796895_2_alg».proof.Defs
import Idealize.ShloMosaic.Lib.ReduceAll
import Idealize.ShloMosaic.Lib.ValueIdx

noncomputable section

namespace Cert.FiniteInputs

open Idealize.ShloMosaic Idealize.SL.Sem
open Cert.Pre_finite_inputs (S64x2048x64 S4x2048 S_)

/-- The scalar shape has exactly one index. -/
instance : Subsingleton S_.Idx := ⟨fun a b => funext fun d => d.elim0⟩

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `⊤`. -/
theorem ofBits_inf : Ideal.ofBits .f32 0x7F800000#32 = ⊤ := by simp [Ideal.ofBits, Ideal.ieee]

/-- A comparison bit of the ideal instance is 1 exactly when the comparison holds (here: strict less-than). -/
theorem cmp_olt_eq_one (x y : EReal) : Ideal.cmp .olt x y = 1#1 ↔ x < y := by
  unfold Ideal.cmp
  by_cases h : x < y <;> simp [h]

/-- One entry: if the printed comparison `|a| < +inf` is 1 at index `i`, the entry `a i` is a real. -/
theorem real_of_cmp [Cert.Pre_finite_inputs.Facts] (a : FVec Ideal S64x2048x64 .f32) (i : S64x2048x64.Idx)
    (h : cmpf .olt (Host.absf a)
          (broadcastInDim S64x2048x64 ![] Cert.Pre_finite_inputs.Facts.bcast_S_S64x2048x64
            (constant (F := Ideal) S_ .f32 0x7F800000#32)) i = 1#1) :
    ∃ r : ℝ, a i = (r : EReal) := by
  -- the comparison reads entrywise, the broadcast scalar reads its one value everywhere, `|x|` is `max x (-x)`
  have h' : Ideal.cmp .olt (max (a i) (-(a i))) (Ideal.ofBits .f32 0x7F800000#32) = 1#1 := h
  rw [ofBits_inf] at h'
  exact real_of_abs_lt_top (a i) ((cmp_olt_eq_one _ _).1 h')

/-- One array: if its all-reduction of `|a| < +inf` is 1, every entry of `a` is a real. -/
theorem real_of_all [Cert.Pre_finite_inputs.Facts] (a : FVec Ideal S64x2048x64 .f32)
    (h : Host.reduce IntOp.andi
          (cmpf .olt (Host.absf a)
            (broadcastInDim S64x2048x64 ![] Cert.Pre_finite_inputs.Facts.bcast_S_S64x2048x64
              (constant (F := Ideal) S_ .f32 0x7F800000#32)))
          (constantI S_ 1 1#1) Cert.Pre_finite_inputs.Facts.reducesTo_S64x2048x64_S_d0_1_2
          Cert.Pre_finite_inputs.Facts.h_S_ ValueIdx.ix0 = 1#1) (i : S64x2048x64.Idx) :
    ∃ r : ℝ, a i = (r : EReal) :=
  real_of_cmp a i (Host.reduce_andi_all _ _ _ _ _ h i)

/-- The precondition decoded: if `finite_inputs` of four arrays is all ones, each of the three float arrays is
    real-valued. -/
theorem real_of_fn [Cert.Pre_finite_inputs.Facts] (a0 a1 a2 : FVec Ideal S64x2048x64 .f32) (a3 : IVec S4x2048 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  exact ⟨real_of_all a0 e0, real_of_all a1 e1, real_of_all a2 e2⟩

/-- At the kernel's launch memory: under the certificate's precondition every entry of the three float argument
    arrays, on every device, is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) :=
  real_of_fn _ _ _ _ (h c)

end Cert.FiniteInputs

end
-- ==== Proof.lean ====
/-
  Scaled dot-product attention with an additive key bias: a tiled kernel against the whole-array reference, equal on the
  extended reals when the inputs are finite.

  Both programs compute, per head, `softmax (Q Kᵀ · scale + bias) V` with the bias `-1e-10` where the mask is zero. The
  kernel takes 512 query rows at a time against the head's whole keys and values, scales by a product with one eighth,
  and divides the weighted sum of the value rows once by the sum of the weights; the reference scales by a quotient by
  `√64` and normalizes each weight before the product with the values. The modules:
  `AttnSpec` states both arrangements by coordinates; `AttnAlgebra` proves them equal when every entry is a real
  (`x / 8 = x · (1/8)` on all extended reals; a quotient by a nonzero real distributes over a finite sum of reals);
  `AttnProducts` and `AttnTile` read what one grid point computes at an entry; `AttnArray` assembles the points' blocks
  into the whole output array; `AttnReference` reads the reference's result at an entry; `AttnBias` shows the two
  programs' bias arrays are one array of reals; `FiniteInputs` turns the precondition into "every entry is a real";
  `LibRowOps` and `LibLastAxisMax` read a row's maximum and sum, and the host's maximum over the last axis, at coordinates.
  The three frames are the generated ones (the reference's is its run with the result dropped), and the kernel's
  idealization rewrote nothing, so that claim is `True`.
-/
import proofs.«132619_j33646773796895_2_alg».proof.Defs
import proofs.«132619_j33646773796895_2_alg».proof.Proof.Gen.Kernel
import proofs.«132619_j33646773796895_2_alg».proof.Proof.Gen.Kernel.Skeleton
import proofs.«132619_j33646773796895_2_alg».proof.Proof.Gen.Kernel.Launch
import proofs.«132619_j33646773796895_2_alg».proof.Proof.Gen.Kernel.Points
import proofs.«132619_j33646773796895_2_alg».proof.Proof.Gen.Kernel.Frame
import proofs.«132619_j33646773796895_2_alg».proof.Proof.Gen.KernelIdeal
import proofs.«132619_j33646773796895_2_alg».proof.Proof.Gen.KernelIdeal.Skeleton
import proofs.«132619_j33646773796895_2_alg».proof.Proof.Gen.KernelIdeal.Launch
import proofs.«132619_j33646773796895_2_alg».proof.Proof.Gen.KernelIdeal.Points
import proofs.«132619_j33646773796895_2_alg».proof.Proof.Gen.KernelIdeal.Frame
import proofs.«132619_j33646773796895_2_alg».proof.Proof.Gen.ReferenceIdeal
import proofs.«132619_j33646773796895_2_alg».proof.Proof.Gen.KernelIdeal.Value
import proofs.«132619_j33646773796895_2_alg».proof.Proof.Gen.ReferenceIdeal.Run
import proofs.«132619_j33646773796895_2_alg».proof.Proof.Gen.ReferenceIdeal.Read
import proofs.«132619_j33646773796895_2_alg».proof.Proof.Gen.Pre_finite_inputs
import proofs.«132619_j33646773796895_2_alg».proof.Proof.AttnArray
import proofs.«132619_j33646773796895_2_alg».proof.Proof.AttnAlgebra
import proofs.«132619_j33646773796895_2_alg».proof.Proof.AttnReference
import proofs.«132619_j33646773796895_2_alg».proof.Proof.AttnBias
import proofs.«132619_j33646773796895_2_alg».proof.Proof.FiniteInputs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's output array is attention in the first arrangement (`AttnArray`), the reference's in the second
    (`AttnReference`), of the same arrays once the arguments' agreement is rewritten and the two bias arrays are
    identified (`AttnBias`); under the precondition every entry is a real (`FiniteInputs`, `AttnBias`), where the two
    arrangements agree (`AttnAlgebra`). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.FiniteInputs.real_of_pre m hpre c
  rw [Cert.ReferenceIdeal.Read.val_main_v26_eq, (hagree c).1, (hagree c).2.1, (hagree c).2.2.1, (hagree c).2.2.2,
    Cert.AttnBias.kernel_bias_eq]
  funext i
  obtain ⟨b, r, d, rfl⟩ : ∃ (b : Fin 64) (r : Fin 2048) (d : Fin 64), i = ix3 b r d := ⟨i 0, i 1, i 2, eq_ix3 i⟩
  refine (Cert.ReferenceIdeal.RefValue.ref_apply _ _ _ _ b r d).trans ?_
  exact Cert.Attn.attnDivEach_eq_attnDivOnce _ _ _ _ hQ hK hV (Cert.AttnBias.bias_real _) b r d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
